-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x4096 : Shape := ⟨2, ![8192, 4096]⟩
abbrev S4096x4096 : Shape := ⟨2, ![4096, 4096]⟩
abbrev S_ : Shape := ⟨0, ![]⟩

class Facts : Prop where
  bcast_S_S8192x4096 : S_.BroadcastsInDim S8192x4096 (![] : Fin 0 → Fin S8192x4096.rank)
  reducesTo_S8192x4096_S_d0_1 : S8192x4096.ReducesTo [0, 1] S_
  h_S_ : 0 < S_.numel
  reducesTo_S_S_d : S_.ReducesTo [] S_

variable [Facts]

def fn {F : FTy → Type} [FloatOps F] (main_arg0 : FVec F S8192x4096 .f32) (main_arg1 : IVec S4096x4096 32) (main_arg2 : FVec F S_ .f32) : IVec S_ 1 :=
  let main_v0 : FVec F S8192x4096 .f32 := Host.absf main_arg0
  let main_cst : FVec F S_ .f32 := constant S_ .f32 0x7F800000#32
  let main_v1 : FVec F S8192x4096 .f32 := broadcastInDim S8192x4096 ![] bcast_S_S8192x4096 main_cst
  let main_v2 : IVec S8192x4096 1 := cmpf .olt main_v0 main_v1
  let main_c : IVec S_ 1 := constantI S_ 1 1#1
  let main_v3 : IVec S_ 1 := (fun x v => Host.reduce IntOp.andi x v reducesTo_S8192x4096_S_d0_1 h_S_) main_v2 main_c
  let main_v4 : FVec F S_ .f32 := Host.absf main_arg2
  let main_cst_0 : FVec F S_ .f32 := constant S_ .f32 0x7F800000#32
  let main_v5 : IVec S_ 1 := cmpf .olt main_v4 main_cst_0
  let main_c_1 : IVec S_ 1 := constantI S_ 1 1#1
  let main_v6 : IVec S_ 1 := (fun x v => Host.reduce IntOp.andi x v reducesTo_S_S_d h_S_) main_v5 main_c_1
  let main_v7 : IVec S_ 1 := andi main_v3 main_v6
  main_v7
-- ==== Kernel.lean ====
abbrev S8192x4096 : Shape := ⟨2, ![8192, 4096]⟩
abbrev S4096x4096 : Shape := ⟨2, ![4096, 4096]⟩
abbrev S_ : Shape := ⟨0, ![]⟩
abbrev S1024x512 : Shape := ⟨2, ![1024, 512]⟩
abbrev S2048x512 : Shape := ⟨2, ![2048, 512]⟩
abbrev S1024x2048 : Shape := ⟨2, ![1024, 2048]⟩

abbrev nBuf : Space → Nat
  | .hbm => 8
  | .vmem => 6
  | .smem => 0
  | _ => 0

abbrev bufTy : (tb : Table) → Fin (tcTables nBuf tb) → BufTy
  | .hbm, ⟨0, _⟩ => ⟨S8192x4096, .f32⟩
  | .hbm, ⟨1, _⟩ => ⟨S4096x4096, .i32⟩
  | .hbm, ⟨2, _⟩ => ⟨S_, .f32⟩
  | .hbm, ⟨3, _⟩ => ⟨S4096x4096, .f32⟩
  | .hbm, ⟨4, _⟩ => ⟨S4096x4096, .f32⟩
  | .hbm, ⟨5, _⟩ => ⟨S4096x4096, .f32⟩
  | .hbm, ⟨6, _⟩ => ⟨S4096x4096, .bf16⟩
  | .hbm, ⟨7, _⟩ => ⟨S8192x4096, .f32⟩
  | .local _ .vmem, ⟨0, _⟩ => ⟨S1024x512, .f32⟩
  | .local _ .vmem, ⟨1, _⟩ => ⟨S1024x512, .f32⟩
  | .local _ .vmem, ⟨2, _⟩ => ⟨S2048x512, .bf16⟩
  | .local _ .vmem, ⟨3, _⟩ => ⟨S2048x512, .bf16⟩
  | .local _ .vmem, ⟨4, _⟩ => ⟨S1024x2048, .f32⟩
  | .local _ .vmem, ⟨5, _⟩ => ⟨S1024x2048, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 8], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

class Facts₀ : Prop where
  bcast_S_S4096x4096 : S_.BroadcastsInDim S4096x4096 (![] : Fin 0 → Fin S4096x4096.rank)
  bitsLt_bf16_f32 : FTy.bits .bf16 < FTy.bits .f32
  inb_S1024x2048_S1024x2048_0_0 : ∀ a, (![0, 0] : Fin 2 → Nat) a + S1024x2048.size a ≤ S1024x2048.size a
  h_S1024x2048 : 0 < S1024x2048.numel
  inb_S1024x512_S1024x512_0_0 : ∀ a, (![0, 0] : Fin 2 → Nat) a + S1024x512.size a ≤ S1024x512.size a
  h_S1024x512 : 0 < S1024x512.numel
  inb_S2048x512_S2048x512_0_0 : ∀ a, (![0, 0] : Fin 2 → Nat) a + S2048x512.size a ≤ S2048x512.size a
  h_S2048x512 : 0 < S2048x512.numel
  shapeCasts_S2048x512_S2048x512 : S2048x512.ShapeCasts S2048x512
  shapeCasts_S1024x2048_S1024x2048 : S1024x2048.ShapeCasts S1024x2048
  dot_S1024x512_S2048x512_S1024x2048_1_1_0_0_n_n_wf : DotDims.WF S1024x512 S2048x512 S1024x2048 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x512.size a ≤ S8192x4096.size a
  hwx0_0 : ∀ i : grid0.Coords, EltTy.bits .f32 = 32 ∨ (Rect.block (s := S8192x4096) S1024x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x512.size a ≤ S4096x4096.size a
  hwx0_1 : ∀ i : grid0.Coords, EltTy.bits .bf16 = 32 ∨ (Rect.block (s := S4096x4096) S2048x512.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x2048.size a ≤ S8192x4096.size a
  hwx0_2 : ∀ i : grid0.Coords, EltTy.bits .f32 = 32 ∨ (Rect.block (s := S8192x4096) S1024x2048.size (cc0_transform_2 i) (hinb0_2 i)).WholeWords (EltTy.packing .f32)

variable [Facts₀]

def dot_S1024x512_S2048x512_S1024x2048_1_1_0_0_n_n : DotDims S1024x512 S2048x512 S1024x2048 where
  lhsContracting := [1]
  rhsContracting := [1]
  lhsNonContracting := [0]
  rhsNonContracting := [0]
  lhsBatch := []
  rhsBatch := []
  wf := dot_S1024x512_S2048x512_S1024x2048_1_1_0_0_n_n_wf

abbrev win0_0 : Pipeline.Window sig grid0 :=
  Pipeline.Window.ofSpec (Memref.whole main_arg0) S1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v3) S2048x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v4) S1024x2048.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S8192x4096 : Shape := ⟨2, ![8192, 4096]⟩
abbrev S4096x4096 : Shape := ⟨2, ![4096, 4096]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S4096x4096, .i32⟩
  | .hbm, ⟨2, _⟩ => ⟨S_, .f32⟩
  | .hbm, ⟨3, _⟩ => ⟨S4096x4096, .f32⟩
  | .hbm, ⟨4, _⟩ => ⟨S4096x4096, .f32⟩
  | .hbm, ⟨5, _⟩ => ⟨S4096x4096, .f32⟩
  | .hbm, ⟨6, _⟩ => ⟨S4096x4096, .f32⟩
  | .hbm, ⟨7, _⟩ => ⟨S8192x4096, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]

class Facts₀ : Prop where
  bcast_S_S4096x4096 : S_.BroadcastsInDim S4096x4096 (![] : Fin 0 → Fin S4096x4096.rank)
  transposes_S4096x4096_S4096x4096_1_0 : S4096x4096.Transposes [1, 0] S4096x4096
  dot_S8192x4096_S4096x4096_S8192x4096_1_0_0_1_n_n_wf : DotDims.WF S8192x4096 S4096x4096 S8192x4096 [1] [0] [0] [1] [] []

variable [Facts₀]

def dot_S8192x4096_S4096x4096_S8192x4096_1_0_0_1_n_n : DotDims S8192x4096 S4096x4096 S8192x4096 where
  lhsContracting := [1]
  rhsContracting := [0]
  lhsNonContracting := [0]
  rhsNonContracting := [1]
  lhsBatch := []
  rhsBatch := []
  wf := dot_S8192x4096_S4096x4096_S8192x4096_1_0_0_1_n_n_wf

class Facts : Prop extends Facts₀ where

variable [Facts]
-- ==== Proof.LibERealMatrix.lean ====
/-
  General facts about finite sums and products of extended reals, as a matrix computation at exact
  arithmetic needs them.

  On the extended reals addition and multiplication are commutative and associative, so regrouping a
  sum (a reduction axis cut into blocks and accumulated block by block) needs no hypothesis. Distributing a
  product over a sum does need one: it fails at the infinities. A triple matrix product can therefore be
  re-associated, (sᵀ A) t = sᵀ (A t), once every entry is a real number; the proof passes to the reals, where
  it is the interchange of two finite sums.
-/
import Mathlib.Data.EReal.Operations
import Mathlib.Algebra.BigOperators.Fin
import Mathlib.Algebra.BigOperators.Ring.Finset
import Mathlib.Algebra.BigOperators.Group.Finset.Sigma
import Mathlib.Logic.Equiv.Fin.Basic
import Mathlib.Tactic.Ring

namespace LibERealMatrix

open Finset

/-- An extended real is FINITE when it is neither infinity: it is the image of a real number. -/
def Fin' (x : EReal) : Prop := x ≠ ⊤ ∧ x ≠ ⊥

theorem Fin'.coe (r : ℝ) : Fin' (r : EReal) := ⟨EReal.coe_ne_top r, EReal.coe_ne_bot r⟩

theorem Fin'.exists_real {x : EReal} (h : Fin' x) : ∃ r : ℝ, x = (r : EReal) :=
  ⟨x.toReal, (EReal.coe_toReal h.1 h.2).symm⟩

/-- A family of finite extended reals is the image of a family of reals. -/
theorem exists_real_family {ι : Type*} (f : ι → EReal) (h : ∀ i, Fin' (f i)) :
    ∃ g : ι → ℝ, ∀ i, f i = (g i : EReal) :=
  ⟨fun i => (f i).toReal, fun i => (EReal.coe_toReal (h i).1 (h i).2).symm⟩

/-- The inclusion of the reals commutes with finite sums. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem Fin'.add {x y : EReal} (hx : Fin' x) (hy : Fin' y) : Fin' (x + y) := by
  obtain ⟨a, rfl⟩ := hx.exists_real
  obtain ⟨b, rfl⟩ := hy.exists_real
  rw [← EReal.coe_add]; exact Fin'.coe _

theorem Fin'.mul {x y : EReal} (hx : Fin' x) (hy : Fin' y) : Fin' (x * y) := by
  obtain ⟨a, rfl⟩ := hx.exists_real
  obtain ⟨b, rfl⟩ := hy.exists_real
  rw [← EReal.coe_mul]; exact Fin'.coe _

/-- A finite sum of finite extended reals is finite. -/
theorem Fin'.sum {ι : Type*} (s : Finset ι) (f : ι → EReal) (h : ∀ i, Fin' (f i)) :
    Fin' (∑ i ∈ s, f i) := by
  obtain ⟨g, hg⟩ := exists_real_family f h
  simp only [hg]
  rw [← coe_sum]; exact Fin'.coe _

/-- A sum over `Fin (n * b)` is the sum over the `n` blocks of the sums over the `b` positions inside a
    block; the element at block `k`, position `r` is the one numbered `r + b * k`. No hypothesis: only
    commutativity and associativity of the addition are used. -/
theorem sum_fin_mul {M : Type*} [AddCommMonoid M] (n b : ℕ) (f : Fin (n * b) → M) :
    ∑ x, f x = ∑ k : Fin n, ∑ r : Fin b, f (finProdFinEquiv (k, r)) :=
  ((finProdFinEquiv (m := n) (n := b)).sum_comp f).symm.trans (Fintype.sum_prod_type _)

theorem finProdFinEquiv_val (n b : ℕ) (k : Fin n) (r : Fin b) :
    ((finProdFinEquiv (k, r) : Fin (n * b)) : ℕ) = r.val + b * k.val := rfl

/-- A scalar product whose index set is cut into `n` blocks of `b` is the sum of the `n` partial scalar
    products, whatever the entries (infinite ones included). -/
theorem dot_blocked (n b : ℕ) (u v : Fin (n * b) → EReal) :
    ∑ x, u x * v x = ∑ k : Fin n, ∑ r : Fin b, u (finProdFinEquiv (k, r)) * v (finProdFinEquiv (k, r)) :=
  sum_fin_mul n b fun x => u x * v x

/-- The same over ranges of naturals: the numbers below `n * b` are the `r + b * s` with `s < n`, `r < b`. -/
theorem sum_range_mul {M : Type*} [AddCommMonoid M] (n b : ℕ) (f : ℕ → M) :
    ∑ J ∈ range (n * b), f J = ∑ s ∈ range n, ∑ r ∈ range b, f (r + b * s) := by
  rw [← Fin.sum_univ_eq_sum_range f (n * b), sum_fin_mul n b (fun x => f x.val),
    ← Fin.sum_univ_eq_sum_range (fun s => ∑ r ∈ range b, f (r + b * s)) n]
  refine Finset.sum_congr rfl fun s _ => ?_
  rw [← Fin.sum_univ_eq_sum_range (fun r => f (r + b * s.val)) b]
  rfl

/-- An accumulator that starts at zero and takes four partial sums in turn ends at their sum. -/
theorem acc_four {M : Type*} [AddCommMonoid M] (d : Fin 4 → M) :
    (((0 + d 0) + d 1) + d 2) + d 3 = ∑ k, d k := by
  rw [Fin.sum_univ_four, zero_add]

/-- Re-association of a triple product of matrices with FINITE entries:
    `∑ j, (∑ i, s i * A i j) * t j = ∑ i, s i * ∑ j, A i j * t j`. With an infinite entry this fails
    (the product does not distribute over a sum of opposite infinities). -/
theorem sum_mul_sum_assoc {ι κ : Type*} [Fintype ι] [Fintype κ]
    (s : ι → EReal) (A : ι → κ → EReal) (t : κ → EReal)
    (hs : ∀ i, Fin' (s i)) (hA : ∀ i j, Fin' (A i j)) (ht : ∀ j, Fin' (t j)) :
    ∑ j, (∑ i, s i * A i j) * t j = ∑ i, s i * ∑ j, A i j * t j := by
  obtain ⟨s', hs'⟩ := exists_real_family s hs
  obtain ⟨A', hA'⟩ : ∃ g : ι → κ → ℝ, ∀ i j, A i j = (g i j : EReal) :=
    ⟨fun i j => (A i j).toReal, fun i j => (EReal.coe_toReal (hA i j).1 (hA i j).2).symm⟩
  obtain ⟨t', ht'⟩ := exists_real_family t ht
  have hL : ∀ j, (∑ i, s i * A i j) * t j = (((∑ i, s' i * A' i j) * t' j : ℝ) : EReal) := by
    intro j
    rw [EReal.coe_mul, coe_sum, ht']
    refine congrArg (· * (t' j : EReal)) (Finset.sum_congr rfl fun i _ => ?_)
    rw [hs', hA', EReal.coe_mul]
  have hR : ∀ i, s i * ∑ j, A i j * t j = ((s' i * ∑ j, A' i j * t' j : ℝ) : EReal) := by
    intro i
    rw [EReal.coe_mul, coe_sum, hs']
    refine congrArg ((s' i : EReal) * ·) (Finset.sum_congr rfl fun j _ => ?_)
    rw [hA', ht', EReal.coe_mul]
  simp only [hL, hR]
  rw [← coe_sum, ← coe_sum]
  refine congrArg _ ?_
  simp only [Finset.sum_mul, Finset.mul_sum]
  rw [Finset.sum_comm]
  exact Finset.sum_congr rfl fun i _ => Finset.sum_congr rfl fun j _ => by ring

end LibERealMatrix
-- ==== Proof.LinearSpec.lean ====
/-
  THE SPECIFICATION: a linear layer whose weight is stored quantised.

  The arguments are an activation matrix `x` (8192 × 4096), an integer weight matrix `q` (4096 × 4096, one row per
  OUTPUT feature) and one scale `s`. The weight is `w[j,k] = float(q[j,k]) · s`, and the result is `x · wᵀ`:

      out[i,j] = Σ_{k < 4096} x[i,k] · w[j,k].

  One law is needed to compare two ways of computing it: the sum over the 4096 contracted positions equals the sum,
  over 8 consecutive blocks of 512 positions, of the partial sums. That uses only commutativity and associativity of
  the addition of extended reals, so it holds whatever the entries are, infinite ones included; no product is ever
  distributed over a sum.

  To speak of "the entry at row a, column b" for natural numbers a, b computed by tile arithmetic, `at2` reads a
  matrix at a pair of naturals (and is `0` outside the matrix, a value that is never used).
-/
import Idealize.ShloMosaic.Lib.ValueIdx
import proofs.«158494_j28424093565283_2_alg».proof.Proof.LibERealMatrix

noncomputable section

namespace DequantLinear

open Idealize.ShloMosaic Idealize.ShloMosaic.ValueIdx Finset

/-- The dequantised weight: `w[j,k] = float(q[j,k]) · s`. -/
def weight (q : IVec ⟨2, ![4096, 4096]⟩ 32) (s : FVec Ideal ⟨0, ![]⟩ .f32) : FVec Ideal ⟨2, ![4096, 4096]⟩ .f32 :=
  fun i => FloatOps.sitofp (F := Ideal) .f32 (q i) * s ix0

/-- The layer: `out[i,j] = Σ_k x[i,k] · w[j,k]` (the weight's rows are indexed by the output feature). -/
def out (x : FVec Ideal ⟨2, ![8192, 4096]⟩ .f32) (w : FVec Ideal ⟨2, ![4096, 4096]⟩ .f32) :
    FVec Ideal ⟨2, ![8192, 4096]⟩ .f32 :=
  fun i => ∑ k : Fin 4096, x (ix2 (n0 := 8192) (n1 := 4096) (i 0) k) * w (ix2 (n0 := 4096) (n1 := 4096) (i 1) k)

/-- A matrix read at a pair of naturals: its entry when the pair is inside, `0` otherwise. -/
def at2 {n0 n1 : ℕ} (A : (⟨2, ![n0, n1]⟩ : Shape).Idx → EReal) (a b : ℕ) : EReal :=
  if h : a < n0 ∧ b < n1 then A (ix2 (n0 := n0) (n1 := n1) ⟨a, h.1⟩ ⟨b, h.2⟩) else 0

theorem at2_of_lt {n0 n1 : ℕ} (A : (⟨2, ![n0, n1]⟩ : Shape).Idx → EReal) (a b : ℕ) (ha : a < n0) (hb : b < n1) :
    at2 A a b = A (ix2 (n0 := n0) (n1 := n1) ⟨a, ha⟩ ⟨b, hb⟩) := dif_pos ⟨ha, hb⟩

/-- At an index's own coordinates `at2` is the entry. -/
theorem at2_idx {n0 n1 : ℕ} (A : (⟨2, ![n0, n1]⟩ : Shape).Idx → EReal) (j : (⟨2, ![n0, n1]⟩ : Shape).Idx) :
    at2 A (j 0).val (j 1).val = A j := by
  rw [at2_of_lt A _ _ (idx2_lt0 j) (idx2_lt1 j)]
  exact congrArg A (eq_ix2 j).symm

/-- The layer's entry as a sum over the naturals below 4096. -/
theorem out_eq_range (x : FVec Ideal ⟨2, ![8192, 4096]⟩ .f32) (w : FVec Ideal ⟨2, ![4096, 4096]⟩ .f32)
    (i : (⟨2, ![8192, 4096]⟩ : Shape).Idx) :
    out x w i = ∑ J ∈ range 4096, at2 x (i 0).val J * at2 w (i 1).val J := by
  unfold out
  rw [← Fin.sum_univ_eq_sum_range (fun J => at2 x (i 0).val J * at2 w (i 1).val J) 4096]
  refine Finset.sum_congr rfl fun k _ => ?_
  rw [at2_of_lt x _ _ (idx2_lt0 i) k.isLt, at2_of_lt w _ _ (idx2_lt1 i) k.isLt]
  rfl

/-- THE LAW: the contraction cut into 8 blocks of 512 positions — block `s` holds the positions `512·s + r`. -/
theorem out_blocked (x : FVec Ideal ⟨2, ![8192, 4096]⟩ .f32) (w : FVec Ideal ⟨2, ![4096, 4096]⟩ .f32)
    (i : (⟨2, ![8192, 4096]⟩ : Shape).Idx) :
    out x w i = ∑ s ∈ range 8, ∑ r ∈ range 512, at2 x (i 0).val (s * 512 + r) * at2 w (i 1).val (s * 512 + r) := by
  rw [out_eq_range]
  refine (LibERealMatrix.sum_range_mul 8 512 (fun J => at2 x (i 0).val J * at2 w (i 1).val J)).trans ?_
  refine Finset.sum_congr rfl fun s _ => Finset.sum_congr rfl fun r _ => ?_
  rw [show r + 512 * s = s * 512 + r from by omega]

end DequantLinear

end
-- ==== Proof.RefValue.lean ====
/-
  The reference computes the specification. Its five host operations are: the integer weight converted to floats,
  the scale broadcast to the weight's shape, their product (the dequantised weight `w`), the transpose `wᵀ`, and the
  product `x · wᵀ` contracted over `x`'s columns and `wᵀ`'s rows. Read at an entry (i, j) that product is
  Σ_k x[i,k] · wᵀ[k,j] = Σ_k x[i,k] · w[j,k], which is the specification's `out`, and `w` at an entry is
  float(q[j,k]) · s, the specification's `weight`.
-/
import proofs.«158494_j28424093565283_2_alg».proof.Proof.Gen.ReferenceIdeal.Read
import proofs.«158494_j28424093565283_2_alg».proof.Proof.LinearSpec

noncomputable section

namespace Cert.ReferenceIdeal.RefValue

open Cert.ReferenceIdeal Cert.ReferenceIdeal.Gen Cert.ReferenceIdeal.Read
open Idealize.ShloMosaic Idealize.ShloMosaic.ValueIdx

/-- The third stage — converted weight times broadcast scale — is the dequantised weight. -/
theorem weight_eq (x1 : IVec S4096x4096 32) (x2 : FVec Ideal S_ .f32) :
    val_main_v2 (F := Ideal) x1 x2 = DequantLinear.weight x1 x2 := by
  funext i
  rw [val_main_v2_apply, val_main_v0_apply, val_main_v1_apply]
  rfl

/-- The last stage is the layer applied to the dequantised weight: the transpose turns the product's
    "row k, column j" of `wᵀ` into "row j, column k" of `w`. -/
theorem result_eq (x0 : FVec Ideal S8192x4096 .f32) (x1 : IVec S4096x4096 32) (x2 : FVec Ideal S_ .f32) :
    val_main_v4 (F := Ideal) x0 x1 x2 = DequantLinear.out x0 (DequantLinear.weight x1 x2) := by
  funext i
  rw [val_main_v4_apply, ← weight_eq]
  unfold DequantLinear.out
  refine Finset.sum_congr rfl fun k _ => ?_
  rw [val_main_v3_apply]
  have e1 : lidx_main_v4 i k = ix2 (n0 := 8192) (n1 := 4096) (i 0) k := funext fun a => Fin.ext (by
    match a with
    | ⟨0, _⟩ => rfl
    | ⟨1, _⟩ => rfl)
  have e2 : idx_main_v3 (ridx_main_v4 i k) = ix2 (n0 := 4096) (n1 := 4096) (i 1) k := funext fun a => Fin.ext (by
    match a with
    | ⟨0, _⟩ => rfl
    | ⟨1, _⟩ => rfl)
  rw [e1, e2]

end Cert.ReferenceIdeal.RefValue

end
-- ==== Proof.LibMatmulNT.lean ====
/-
  A TensorCore product of an M×K matrix with an N×K matrix, each contracted along its SECOND axis (the right factor
  enters transposed without being transposed in memory), at exact arithmetic, read at an entry: the accumulator's
  entry plus the sum over the contracted axis of the products of the left factor's row entries with the right
  factor's ROW entries,

      (acc + l · rᵀ)[j₀, j₁] = acc[j₀, j₁] + Σ_k l[j₀, k] · r[j₁, k].

  Stated for any contraction record between two-axis shapes whose operand indices are "row of the result, contracted
  position" and "column of the result, contracted position" — four facts that hold by computation for the record such
  a product prints. Nothing is asked of the entries: at exact arithmetic the product is this sum by definition, and the
  only step is to re-index the one-axis contraction by its coordinate.
-/
import Idealize.ShloMosaic.Lib.ValueIdx
import Idealize.ShloMosaic.PureOps.Ideal.Laws

noncomputable section

namespace LibMatmulNT

open Idealize.ShloMosaic Idealize.ShloMosaic.ValueIdx

/-- `tpu.matmul` of an M×K by an N×K matrix, both contracted on axis 1, onto an accumulator, at entry `j`:
    `acc[j] + Σ_k l[j₀,k] · r[j₁,k]`. -/
theorem matmul_nt_apply {M K N : ℕ} {φ₁ φ₂ : FTy} (D : DotDims ⟨2, ![M, K]⟩ ⟨2, ![N, K]⟩ ⟨2, ![M, N]⟩)
    (hr : D.contr.rank = 1) (hs : D.contr.size ⟨0, by omega⟩ = K)
    (hl0 : ∀ j k, (D.lhsIdx j k 0).val = (j 0).val) (hl1 : ∀ j k, (D.lhsIdx j k 1).val = (k ⟨0, by omega⟩).val)
    (hr0 : ∀ j k, (D.rhsIdx j k 0).val = (j 1).val) (hr1 : ∀ j k, (D.rhsIdx j k 1).val = (k ⟨0, by omega⟩).val)
    (prec : Option ContractPrecision) (l : FVec Ideal ⟨2, ![M, K]⟩ φ₁) (r : FVec Ideal ⟨2, ![N, K]⟩ φ₂)
    (acc : FVec Ideal ⟨2, ![M, N]⟩ .f32) (j : (⟨2, ![M, N]⟩ : Shape).Idx) :
    FloatOps.matmul (F := Ideal) D prec l r acc j
      = acc j + ∑ k : Fin K, l (ix2 (n0 := M) (n1 := K) (j 0) k) * r (ix2 (n0 := N) (n1 := K) (j 1) k) := by
  rw [Ideal.matmul_apply, ← Equiv.sum_comp (contrEquiv1 D K hr hs).symm]
  refine congrArg (acc j + ·) (Finset.sum_congr rfl fun k _ => ?_)
  have hk := contrEquiv1_symm_val D K hr hs k
  have e1 : D.lhsIdx j ((contrEquiv1 D K hr hs).symm k) = ix2 (n0 := M) (n1 := K) (j 0) k := funext fun a => Fin.ext (by
    match a with
    | ⟨0, _⟩ => exact hl0 _ _
    | ⟨1, _⟩ => exact (hl1 _ _).trans hk)
  have e2 : D.rhsIdx j ((contrEquiv1 D K hr hs).symm k) = ix2 (n0 := N) (n1 := K) (j 1) k := funext fun a => Fin.ext (by
    match a with
    | ⟨0, _⟩ => exact hr0 _ _
    | ⟨1, _⟩ => exact (hr1 _ _).trans hk)
  rw [e1, e2]

/-- The same into the zero splat: the accumulator's entry is `0`, so the entry is the bare sum. -/
theorem matmul_nt_zero_apply {M K N : ℕ} {φ₁ φ₂ : FTy} (D : DotDims ⟨2, ![M, K]⟩ ⟨2, ![N, K]⟩ ⟨2, ![M, N]⟩)
    (hr : D.contr.rank = 1) (hs : D.contr.size ⟨0, by omega⟩ = K)
    (hl0 : ∀ j k, (D.lhsIdx j k 0).val = (j 0).val) (hl1 : ∀ j k, (D.lhsIdx j k 1).val = (k ⟨0, by omega⟩).val)
    (hr0 : ∀ j k, (D.rhsIdx j k 0).val = (j 1).val) (hr1 : ∀ j k, (D.rhsIdx j k 1).val = (k ⟨0, by omega⟩).val)
    (prec : Option ContractPrecision) (l : FVec Ideal ⟨2, ![M, K]⟩ φ₁) (r : FVec Ideal ⟨2, ![N, K]⟩ φ₂)
    (j : (⟨2, ![M, N]⟩ : Shape).Idx) :
    FloatOps.matmul (F := Ideal) D prec l r (constant ⟨2, ![M, N]⟩ .f32 0x00000000#32) j
      = ∑ k : Fin K, l (ix2 (n0 := M) (n1 := K) (j 0) k) * r (ix2 (n0 := N) (n1 := K) (j 1) k) := by
  rw [matmul_nt_apply D hr hs hl0 hl1 hr0 hr1]
  show Ideal.ofBits .f32 0x00000000#32 + _ = _
  rw [Ideal.ofBits_zero_f32, zero_add]

end LibMatmulNT

end
-- ==== Proof.PointValue.lean ====
/-
  ONE GRID POINT of the kernel, at exact arithmetic.

  The grid is 8 × 2 × 8: point `t` works on the row tile `t / 16` (1024 rows of `x`), the column tile `t / 8 % 2`
  (2048 output features, that is 2048 rows of the weight) and the contraction block `t % 8` (512 positions). The
  weight the kernel sees is the array a host stage wrote before the launch: the integer weight converted to floats,
  times the broadcast scale, with a change of float format that is the identity here. So at point `t`

    * the activation block's entry (a, r) is  x[1024·(t/16) + a, 512·(t%8) + r],
    * the weight block's entry (b, r) is      w[2048·(t/8%2) + b, 512·(t%8) + r],   w = float(q) · s,

  and the body's stored value is the block it read back plus the product of the activation block with the
  TRANSPOSED weight block: entry (a, b) gains  Σ_{r < 512} x[…a, …r] · w[…b, …r]  — the point's ADDEND.
-/
import proofs.«158494_j28424093565283_2_alg».proof.Proof.Gen.KernelIdeal.Value
import proofs.«158494_j28424093565283_2_alg».proof.Proof.LibMatmulNT
import proofs.«158494_j28424093565283_2_alg».proof.Proof.LinearSpec
import Idealize.ShloMosaic.Lib.StableHlo.Run
import Idealize.ShloMosaic.Lib.Pipeline.Value

noncomputable section

namespace Cert.KernelIdeal.PointValue

open Cert.KernelIdeal Cert.KernelIdeal.Gen
open Idealize.ShloMosaic Idealize.ShloMosaic.TcCoe Idealize.ShloMosaic.ValueIdx Idealize.SL.Sem
open DequantLinear (at2 weight)

variable (m : (ℓ : Loc nD τ sig) → Buf (Elt Ideal) ℓ) (c : Dev nD)

/-! ## The body's arithmetic at an entry -/

/-- The product's operand indices: the left factor is read at (row of the result, contracted position), -/
theorem dot_lhs0 (j : S1024x2048.Idx) (q : dot_S1024x512_S2048x512_S1024x2048_1_1_0_0_n_n.contr.Idx) :
    (dot_S1024x512_S2048x512_S1024x2048_1_1_0_0_n_n.lhsIdx j q 0).val = (j 0).val := by
  unfold DotDims.lhsIdx
  rw [dif_neg (show ¬(0 : Fin S1024x512.rank) ∈ dot_S1024x512_S2048x512_S1024x2048_1_1_0_0_n_n.lhsBatch by decide),
    dif_pos (show (0 : Fin S1024x512.rank) ∈ dot_S1024x512_S2048x512_S1024x2048_1_1_0_0_n_n.lhsNonContracting by decide)]
  rfl
theorem dot_lhs1 (j : S1024x2048.Idx) (q : dot_S1024x512_S2048x512_S1024x2048_1_1_0_0_n_n.contr.Idx) :
    (dot_S1024x512_S2048x512_S1024x2048_1_1_0_0_n_n.lhsIdx j q 1).val = (q ⟨0, by decide⟩).val :=
  dot_S1024x512_S2048x512_S1024x2048_1_1_0_0_n_n.lhsIdx_val_of_single rfl j q
/-- and the right factor at (column of the result, contracted position): it enters transposed. -/
theorem dot_rhs0 (j : S1024x2048.Idx) (q : dot_S1024x512_S2048x512_S1024x2048_1_1_0_0_n_n.contr.Idx) :
    (dot_S1024x512_S2048x512_S1024x2048_1_1_0_0_n_n.rhsIdx j q 0).val = (j 1).val := by
  unfold DotDims.rhsIdx
  rw [dif_neg (show ¬(0 : Fin S2048x512.rank) ∈ dot_S1024x512_S2048x512_S1024x2048_1_1_0_0_n_n.rhsBatch by decide),
    dif_pos (show (0 : Fin S2048x512.rank) ∈ dot_S1024x512_S2048x512_S1024x2048_1_1_0_0_n_n.rhsNonContracting by decide)]
  rfl
theorem dot_rhs1 (j : S1024x2048.Idx) (q : dot_S1024x512_S2048x512_S1024x2048_1_1_0_0_n_n.contr.Idx) :
    (dot_S1024x512_S2048x512_S1024x2048_1_1_0_0_n_n.rhsIdx j q 1).val = (q ⟨0, by decide⟩).val :=
  dot_S1024x512_S2048x512_S1024x2048_1_1_0_0_n_n.rhsIdx_val_of_single rfl j q

/-- The value the first point of a run stores first: zero everywhere. -/
theorem zeros_apply (y : S1024x2048.Idx) : k0_pay1 (F := Ideal) y = 0 := by
  show Ideal.ofBits .f32 0x00000000#32 = 0
  exact Ideal.ofBits_zero_f32

/-- The value every point stores, at entry `y` = (a, b): what it read back there plus Σ_r x0[a,r] · x1[b,r]
    (the rounding of `x0` to a shorter format is the identity at exact arithmetic). -/
theorem sum_apply (x0 : FVec Ideal S1024x512 .f32) (x1 : FVec Ideal S2048x512 .bf16) (acc : FVec Ideal S1024x2048 .f32)
    (y : S1024x2048.Idx) :
    k0_pay2 (F := Ideal) x0 x1 acc y
      = acc y + ∑ kk : Fin 512, x0 (ix2 (n0 := 1024) (n1 := 512) (y 0) kk) * x1 (ix2 (n0 := 2048) (n1 := 512) (y 1) kk) := by
  show shapeCast S1024x2048 acc shapeCasts_S1024x2048_S1024x2048 y
      + FloatOps.matmul (F := Ideal) dot_S1024x512_S2048x512_S1024x2048_1_1_0_0_n_n none (truncf .bf16 x0 bitsLt_bf16_f32)
          (shapeCast S2048x512 x1 shapeCasts_S2048x512_S2048x512) (constant S1024x2048 .f32 0x00000000#32) y = _
  rw [shapeCast_self, shapeCast_self,
    LibMatmulNT.matmul_nt_zero_apply dot_S1024x512_S2048x512_S1024x2048_1_1_0_0_n_n rfl rfl dot_lhs0 dot_lhs1 dot_rhs0 dot_rhs1]
  rfl

/-! ## The input blocks at a point -/

/-- The printed index maps, decided once over the 128 grid points. -/
theorem idx_facts_in : ∀ t : Fin cfg0.N,
    win0_0.index t (0 : Fin 2) = t.val / 16 ∧ win0_0.index t (1 : Fin 2) = t.val % 8
    ∧ win0_1.index t (0 : Fin 2) = t.val / 8 % 2 ∧ win0_1.index t (1 : Fin 2) = t.val % 8 :=
  (by decide +kernel : ∀ t : Fin grid0.N, _)

/-- The activation block at point `t`, entry (a, r): `x[1024·(t/16) + a, 512·(t%8) + r]`. -/
theorem xblk_apply (t : Fin cfg0.N) (y : S1024x512.Idx) :
    iblk m c 0 t y
      = at2 (m ((c : Thread nD τ).loc main_arg0) : FVec Ideal S8192x4096 .f32)
          (t.val / 16 * 1024 + (y 0).val) (t.val % 8 * 512 + (y 1).val) := by
  show V m c main_arg0 (((cfg0.win 0).blk t).view.emb y) = _
  rw [V_main_arg0]
  refine (DequantLinear.at2_idx (n0 := 8192) (n1 := 4096) _ _).symm.trans ?_
  obtain ⟨e0, e1, -, -⟩ := idx_facts_in t
  have hb0 : ((((cfg0.win 0).blk t).view.emb y) 0).val = win0_0.index t (0 : Fin 2) * 1024 + 1 * (y 0).val := rfl
  have hb1 : ((((cfg0.win 0).blk t).view.emb y) 1).val = win0_0.index t (1 : Fin 2) * 512 + 1 * (y 1).val := rfl
  rw [hb0, hb1, e0, e1, Nat.one_mul, Nat.one_mul]

/-- The array the weight window stages is the dequantised weight: the host stage before the launch wrote
    float(q) · s there (its last operation, a change of float format, is the identity at exact arithmetic). -/
theorem staged_weight :
    (V m c main_v3 : FVec Ideal S4096x4096 .bf16)
      = weight (m ((c : Thread nD τ).loc main_arg1)) (m ((c : Thread nD τ).loc main_arg2)) := by
  have e : @Eq (FVec Ideal S4096x4096 .bf16) (V m c main_v3)
      (truncf .bf16 (mulf (sitofp (F := Ideal) .f32 (m ((c : Thread nD τ).loc main_arg1) : IVec S4096x4096 32))
          (broadcastInDim S4096x4096 ![] bcast_S_S4096x4096 (m ((c : Thread nD τ).loc main_arg2) : FVec Ideal S_ .f32)))
        bitsLt_bf16_f32) := by
    dsimp only [Gen.V, Gen.hostOps0]; after_results
  refine e.trans (funext fun j => ?_)
  show FloatOps.sitofp (F := Ideal) .f32 (m ((c : Thread nD τ).loc main_arg1) j)
      * broadcastInDim S4096x4096 ![] bcast_S_S4096x4096 (m ((c : Thread nD τ).loc main_arg2)) j = _
  rw [broadcastInDim_apply _ bcast_S_S4096x4096 _ j ix0 (fun a => a.elim0)]
  rfl

/-- The weight block at point `t`, entry (b, r): `w[2048·(t/8%2) + b, 512·(t%8) + r]`. -/
theorem wblk_apply (t : Fin cfg0.N) (y : S2048x512.Idx) :
    iblk m c 1 t y
      = at2 (weight (m ((c : Thread nD τ).loc main_arg1)) (m ((c : Thread nD τ).loc main_arg2)))
          (t.val / 8 % 2 * 2048 + (y 0).val) (t.val % 8 * 512 + (y 1).val) := by
  show V m c main_v3 (((cfg0.win 1).blk t).view.emb y) = _
  rw [staged_weight]
  refine (DequantLinear.at2_idx (n0 := 4096) (n1 := 4096) _ _).symm.trans ?_
  obtain ⟨-, -, e0, e1⟩ := idx_facts_in t
  have hb0 : ((((cfg0.win 1).blk t).view.emb y) 0).val = win0_1.index t (0 : Fin 2) * 2048 + 1 * (y 0).val := rfl
  have hb1 : ((((cfg0.win 1).blk t).view.emb y) 1).val = win0_1.index t (1 : Fin 2) * 512 + 1 * (y 1).val := rfl
  rw [hb0, hb1, e0, e1, Nat.one_mul, Nat.one_mul]

/-! ## What one point adds -/

/-- Point `n`'s addend at the block's entry `y` = (a, b): the partial scalar product of row `1024·(n/16) + a` of `x`
    with row `2048·(n/8%2) + b` of `w` over the 512 positions of contraction block `n % 8`. -/
def addend (x : FVec Ideal S8192x4096 .f32) (w : FVec Ideal S4096x4096 .f32) (n : ℕ) (y : S1024x2048.Idx) : EReal :=
  ∑ r ∈ Finset.range 512, at2 x (n / 16 * 1024 + (y 0).val) (n % 8 * 512 + r) * at2 w (n / 8 % 2 * 2048 + (y 1).val) (n % 8 * 512 + r)

/-- The body at point `t`, over whatever the output block held before (`acc`): `acc` plus the point's addend. -/
theorem point_apply (t : Fin cfg0.N) (acc : FVec Ideal S1024x2048 .f32) (y : S1024x2048.Idx) :
    k0_pay2 (F := Ideal) (iblk m c 0 t) (iblk m c 1 t) acc y
      = acc y + addend (m ((c : Thread nD τ).loc main_arg0))
          (weight (m ((c : Thread nD τ).loc main_arg1)) (m ((c : Thread nD τ).loc main_arg2))) t.val y := by
  refine (sum_apply (iblk m c 0 t) (iblk m c 1 t) acc y).trans (congrArg (acc y + ·) ?_)
  unfold addend
  rw [← Fin.sum_univ_eq_sum_range (fun r => at2 (m ((c : Thread nD τ).loc main_arg0) : FVec Ideal S8192x4096 .f32) (t.val / 16 * 1024 + (y 0).val) (t.val % 8 * 512 + r)
      * at2 (weight (m ((c : Thread nD τ).loc main_arg1)) (m ((c : Thread nD τ).loc main_arg2))) (t.val / 8 % 2 * 2048 + (y 1).val) (t.val % 8 * 512 + r)) 512]
  refine Finset.sum_congr rfl fun kk _ => ?_
  rw [xblk_apply, wblk_apply]

end Cert.KernelIdeal.PointValue

end
-- ==== Proof.KernelValue.lean ====
/-
  THE KERNEL'S RESULT is the specification.

  The 128 grid points run in order, and the 8 consecutive points 8ρ, …, 8ρ + 7 (a RUN) share one output block: row
  tile ρ / 2, column tile ρ % 2. The block is set to zero at the run's first point, gains each point's addend, and is
  written back after the last; the sixteen blocks tile the result. So the result's entry (i, j), which lies in the
  block of run ρ = 2·(i / 1024) + j / 2048 at the place (i % 1024, j % 2048), ends holding

      0 + Σ_{s < 8} addend(8ρ + s) = Σ_{s < 8} Σ_{r < 512} x[i, 512·s + r] · w[j, 512·s + r],

  because point 8ρ + s has row tile (8ρ + s) / 16 = i / 1024, column tile (8ρ + s) / 8 % 2 = j / 2048 and contraction
  block (8ρ + s) % 8 = s. By the specification's law — the contraction cut into 8 blocks of 512, a regrouping of a
  sum that needs nothing of the entries — this is Σ_{k < 4096} x[i,k] · w[j,k].
-/
import proofs.«158494_j28424093565283_2_alg».proof.Proof.PointValue

noncomputable section

namespace Cert.KernelIdeal.KernelValue

open Cert.KernelIdeal Cert.KernelIdeal.Gen Cert.KernelIdeal.PointValue
open Idealize.ShloMosaic Idealize.ShloMosaic.TcCoe Idealize.ShloMosaic.ValueIdx Idealize.SL.Sem
open DequantLinear (at2 weight)

variable (m : (ℓ : Loc nD τ sig) → Buf (Elt Ideal) ℓ) (c : Dev nD)

/-- The run's first point leaves zero plus its addend in the block, -/
theorem reset_apply (b : ℕ) (h : b < cfg0.N) (y : S1024x2048.Idx) :
    Value.reset2 m c b h y
      = (fun _ : S1024x2048.Idx => (0 : EReal)) y + addend (m ((c : Thread nD τ).loc main_arg0))
          (weight (m ((c : Thread nD τ).loc main_arg1)) (m ((c : Thread nD τ).loc main_arg2))) b y := by
  refine (point_apply m c ⟨b, h⟩ (k0_pay1 (F := Ideal)) y).trans ?_
  show k0_pay1 (F := Ideal) y + addend _ _ b y = 0 + addend _ _ b y
  rw [zeros_apply]

/-- and every later point adds its addend to what the point before left. -/
theorem step_apply (n : ℕ) (h : n < cfg0.N) (acc : FVec Ideal S1024x2048 .f32) (y : S1024x2048.Idx) :
    Value.step2 m c n h acc y
      = acc y + addend (m ((c : Thread nD τ).loc main_arg0))
          (weight (m ((c : Thread nD τ).loc main_arg1)) (m ((c : Thread nD τ).loc main_arg2))) n y :=
  point_apply m c ⟨n, h⟩ acc y

/-- The result array after the kernel's run is the layer applied to the dequantised weight. -/
theorem result_eq :
    Value.G2 (F := Ideal) m c
      = DequantLinear.out (m ((c : Thread nD τ).loc main_arg0))
          (weight (m ((c : Thread nD τ).loc main_arg1)) (m ((c : Thread nD τ).loc main_arg2))) := by
  funext i
  have hN : cfg0.N = 128 := N_0
  have h0 : (i 0).val < 8192 := (i 0).isLt
  have h1 : (i 1).val < 4096 := (i 1).isLt
  have hrun : Value.run2Of i = 2 * ((i 0).val / 1024) + (i 1).val / 2048 := by
    show 2 * ((i 0).val / 1024 - 0) + 1 * ((i 1).val / 2048 - 0) = _
    omega
  have hb : 8 * Value.run2Of i + 7 < cfg0.N := by rw [hN, hrun]; omega
  have hl0 : (Value.loc2Of i 0).val = (i 0).val % 1024 := rfl
  have hl1 : (Value.loc2Of i 1).val = (i 1).val % 2048 := rfl
  unfold Value.G2
  rw [dif_pos hb]
  rw [Pipeline.accAt_add_apply (ι := S1024x2048.Idx) (β := EReal) (Value.reset2 m c) (Value.step2 m c) (fun _ => 0)
    (addend (m ((c : Thread nD τ).loc main_arg0))
      (weight (m ((c : Thread nD τ).loc main_arg1)) (m ((c : Thread nD τ).loc main_arg2))))
    (8 * Value.run2Of i) 7 (fun h y => reset_apply m c _ h y) (fun n h acc y _ _ => step_apply m c n h acc y)
    7 le_rfl hb (Value.loc2Of i)]
  rw [DequantLinear.out_blocked]
  simp only [zero_add]
  change @Eq EReal _ _
  refine Finset.sum_congr rfl fun s hs => ?_
  have hs' : s < 8 := Finset.mem_range.mp hs
  unfold addend
  refine Finset.sum_congr rfl fun r _ => ?_
  have a0 : (8 * Value.run2Of i + s) / 16 * 1024 + (Value.loc2Of i 0).val = (i 0).val := by rw [hl0, hrun]; omega
  have a1 : (8 * Value.run2Of i + s) % 8 * 512 + r = s * 512 + r := by omega
  have a2 : (8 * Value.run2Of i + s) / 8 % 2 * 2048 + (Value.loc2Of i 1).val = (i 1).val := by rw [hl1, hrun]; omega
  rw [a0, a1, a2]

end Cert.KernelIdeal.KernelValue

end
-- ==== Proof.lean ====
/-
  A linear layer with a quantised weight: out = x · wᵀ with w = float(q) · s, for x of 8192 × 4096 floats, q of
  4096 × 4096 integers and one scale s.

  The kernel dequantises the weight once on the host (float(q) · s, then a change of float format that is the
  identity at exact arithmetic) and multiplies tile by tile: the result's 1024 × 2048 block is zeroed at the first of
  8 contraction steps, gains at each step the product of a 1024 × 512 block of x with the transposed 2048 × 512 block
  of w, and is written back after the last. The reference dequantises the same way, transposes w and takes one whole
  product. At exact arithmetic both give, at entry (i, j),

      Σ_{k < 4096} x[i,k] · (float(q[j,k]) · s):

  the reference directly (the transpose only renames the weight's entry), the kernel as
  0 + Σ_{s < 8} Σ_{r < 512} x[i, 512 s + r] · w[j, 512 s + r], the same sum regrouped into 8 blocks of 512. The
  regrouping uses only commutativity and associativity of the addition of extended reals, so the inputs' finiteness
  is never used.

  The three frames are the programs' runs with the result forgotten; the idealisation rewrote nothing, so the
  preservation claim is trivial.
-/
import proofs.«158494_j28424093565283_2_alg».proof.Defs
import proofs.«158494_j28424093565283_2_alg».proof.Proof.Gen.Kernel.Frame
import proofs.«158494_j28424093565283_2_alg».proof.Proof.Gen.KernelIdeal.Value
import proofs.«158494_j28424093565283_2_alg».proof.Proof.Gen.Pre_finite_inputs
import proofs.«158494_j28424093565283_2_alg».proof.Proof.Gen.ReferenceIdeal.Run
import proofs.«158494_j28424093565283_2_alg».proof.Proof.RefValue
import proofs.«158494_j28424093565283_2_alg».proof.Proof.KernelValue
import Idealize.ShloMosaic.Adequacy
import Idealize.ShloMosaic.Init

noncomputable section

namespace Cert.Proof

open Idealize.ShloMosaic Idealize.SL.Sem

theorem frame_KernelIdeal : frame_KernelIdeal := fun m ρ _ =>
  (θ_run Cert.KernelIdeal.defs _ _).mono (fun _ h c => (h c).2) (Cert.KernelIdeal.Value.run (F := Ideal) m ρ)

theorem frame_ReferenceIdeal : frame_ReferenceIdeal := fun m ρ _ =>
  (θ_run Cert.ReferenceIdeal.defs _ _).mono (fun _ h c => (h c).2) (Cert.ReferenceIdeal.Value.run (F := Ideal) m ρ)

/-- Both programs, run from memories that agree on the three arguments, end with the result array holding the
    layer of the specification: the reference by reading its product at an entry, the kernel by unrolling the
    accumulation over the 8 contraction blocks. -/
theorem algebraic_KernelIdeal_ReferenceIdeal : algebraic_KernelIdeal_ReferenceIdeal := by
  intro m ρ m' ρ' _ hagree
  refine ⟨_, Cert.KernelIdeal.Value.run (F := Ideal) m ρ, ?_⟩
  refine (θ_run Cert.ReferenceIdeal.defs _ _).mono (fun _ h c => ⟨?_, (h c).2⟩) (Cert.ReferenceIdeal.Value.run (F := Ideal) m' ρ')
  rw [(h c).1]
  simp only [hagree c]
  exact ((Cert.ReferenceIdeal.Read.val_main_v4_eq _ _ _).trans (Cert.ReferenceIdeal.RefValue.result_eq _ _ _)).trans
    (Cert.KernelIdeal.KernelValue.result_eq m c).symm

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ, frame_KernelIdeal, frame_ReferenceIdeal, (trivial : preserves_Kernel_KernelIdeal), algebraic_KernelIdeal_ReferenceIdeal⟩

end Cert.Proof

end
